-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The kernel program's run, with its result array named.

  Every weakly fair execution of the program terminates without a fault; in the final state every unscoped buffer
  holds what the last region's exit contents say, in particular the result array, and the arguments are as
  launched. This is the frame's run read once more against the final state, with the result array's buffer read
  beside the arguments'.
-/
import proofs.«110278_g13374528160099_cont_week2b_138_3_alg».proof.Proof.Gen.KernelIdeal.Frame

set_option maxRecDepth 16384

noncomputable section

namespace Cert.KernelIdeal.NetRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last region's exit contents, the arguments as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.NetRun

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibGraphConv.lean ====
/-
  A graph-convolution layer in its two orders, over the extended reals.

  A layer takes an adjacency matrix `a`, a feature matrix `x`, a weight matrix `w` and a bias row `b` to
  `a · x · w + b`. The product of three matrices can be bracketed in two ways:

    aggregate first:  entry (r, c) is  Σ_j (Σ_k a r k · x k j) · w j c  +  b c,
    project first:    entry (r, c) is  Σ_k a r k · (Σ_j x k j · w j c)  +  b c.

  On the extended reals multiplication does not distribute over addition at the infinities, so the two need
  not agree there. When every entry of `a`, `x` and `w` is a real number they do: both are the coercion of
  the same real double sum, by distributivity, exchanging the two sums and associativity of the product in ℝ.
  A layer's entries are then real again when `b` is (also after the rectifier `max · 0`), so two layers in a row
  agree in either order.
-/
import Idealize.ShloMosaic.PureOps.Ideal

noncomputable section

open scoped BigOperators

namespace Cert.Lib.GraphConv

/-! ## Real entries -/

/-- The extended real `x` is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The rectifier keeps a real number real. -/
theorem IsReal.max_zero {x : EReal} (hx : IsReal x) : IsReal (max x 0) := by
  obtain ⟨a, rfl⟩ := hx
  refine ⟨max a 0, ?_⟩
  rw [← EReal.coe_zero]
  exact (EReal.coe_strictMono.monotone.map_max).symm

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem isReal_sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The product of three real matrices, bracketed either way -/

/-- One entry of `(a · x) · w` and of `a · (x · w)`, for a row `a` of the first matrix and a column `w` of the last:
    equal when all entries are real. -/
theorem sum_sum_mul_assoc {K J : Type*} [Fintype K] [Fintype J] (a : K → EReal) (x : K → J → EReal) (w : J → EReal)
    (ha : ∀ k, IsReal (a k)) (hx : ∀ k j, IsReal (x k j)) (hw : ∀ j, IsReal (w j)) :
    ∑ j, (∑ k, a k * x k j) * w j = ∑ k, a k * ∑ j, x k j * w j := by
  choose a' ha' using ha
  choose x' hx' using hx
  choose w' hw' using hw
  have e1 : ∀ j, (∑ k, a k * x k j) * w j = ((∑ k, a' k * x' k j) * w' j : ℝ) := fun j => by
    rw [EReal.coe_mul, coe_sum, hw' j]
    exact congrArg (· * (w' j : EReal)) (Finset.sum_congr rfl fun k _ => by rw [ha' k, hx' k j, EReal.coe_mul])
  have e2 : ∀ k, a k * ∑ j, x k j * w j = ((a' k * ∑ j, x' k j * w' j : ℝ) : EReal) := fun k => by
    rw [EReal.coe_mul, coe_sum, ha' k]
    exact congrArg ((a' k : EReal) * ·) (Finset.sum_congr rfl fun j _ => by rw [hx' k j, hw' j, EReal.coe_mul])
  rw [Finset.sum_congr rfl fun j _ => e1 j, Finset.sum_congr rfl fun k _ => e2 k, ← coe_sum, ← coe_sum]
  refine congrArg _ ?_
  simp only [Finset.sum_mul, Finset.mul_sum]
  rw [Finset.sum_comm]
  exact Finset.sum_congr rfl fun k _ => Finset.sum_congr rfl fun j _ => by ring

/-! ## A layer, in its two orders -/

section Layer

variable {R K J C : Type*} [Fintype K] [Fintype J]

/-- Aggregate over the neighbours first, then project: `(a · x) · w + b`. -/
def aggThenProj (a : R → K → EReal) (x : K → J → EReal) (w : J → C → EReal) (b : C → EReal) : R → C → EReal :=
  fun r c => (∑ j, (∑ k, a r k * x k j) * w j c) + b c

/-- Project the features first, then aggregate: `a · (x · w) + b`. -/
def projThenAgg (a : R → K → EReal) (x : K → J → EReal) (w : J → C → EReal) (b : C → EReal) : R → C → EReal :=
  fun r c => (∑ k, a r k * ∑ j, x k j * w j c) + b c

/-- The rectifier, entry by entry. -/
def relu (h : R → C → EReal) : R → C → EReal := fun r c => max (h r c) 0

/-- Entry (r, c) of an aggregate-first layer reads `a` only on row `r`, `w` and `b` only on column `c`: two layers whose
    operands agree there have the same entry, the rows possibly numbered differently. -/
theorem aggThenProj_congr {R' : Type*} (a : R → K → EReal) (a' : R' → K → EReal) (x x' : K → J → EReal) (w w' : J → C → EReal)
    (b b' : C → EReal) (r : R) (r' : R') (c : C) (ha : ∀ k, a r k = a' r' k) (hx : ∀ k j, x k j = x' k j)
    (hw : ∀ j, w j c = w' j c) (hb : b c = b' c) :
    aggThenProj a x w b r c = aggThenProj a' x' w' b' r' c := by
  unfold aggThenProj
  simp only [ha, hx, hw, hb]

/-- The two orders agree on real matrices (whatever the bias). -/
theorem aggThenProj_eq_projThenAgg (a : R → K → EReal) (x : K → J → EReal) (w : J → C → EReal) (b : C → EReal)
    (ha : ∀ r k, IsReal (a r k)) (hx : ∀ k j, IsReal (x k j)) (hw : ∀ j c, IsReal (w j c)) :
    aggThenProj a x w b = projThenAgg a x w b := by
  funext r c
  unfold aggThenProj projThenAgg
  rw [sum_sum_mul_assoc (a r) x (fun j => w j c) (ha r) hx (fun j => hw j c)]

/-- A layer of real matrices and a real bias has real entries. -/
theorem isReal_projThenAgg (a : R → K → EReal) (x : K → J → EReal) (w : J → C → EReal) (b : C → EReal)
    (ha : ∀ r k, IsReal (a r k)) (hx : ∀ k j, IsReal (x k j)) (hw : ∀ j c, IsReal (w j c)) (hb : ∀ c, IsReal (b c))
    (r : R) (c : C) : IsReal (projThenAgg a x w b r c) :=
  (isReal_sum _ _ fun k => (ha r k).mul (isReal_sum _ _ fun j => (hx k j).mul (hw j c))).add (hb c)

theorem isReal_relu (h : R → C → EReal) (hh : ∀ r c, IsReal (h r c)) (r : R) (c : C) : IsReal (relu h r c) :=
  (hh r c).max_zero

end Layer

/-! ## Two layers with a rectifier between them -/

section TwoLayers

variable {N D H O : Type*} [Fintype N] [Fintype D] [Fintype H]

/-- Both layers aggregate first. -/
def gcnAggFirst (a : N → N → EReal) (x : N → D → EReal) (w1 : D → H → EReal) (b1 : H → EReal) (w2 : H → O → EReal)
    (b2 : O → EReal) : N → O → EReal :=
  aggThenProj a (relu (aggThenProj a x w1 b1)) w2 b2

/-- Both layers project first. -/
def gcnProjFirst (a : N → N → EReal) (x : N → D → EReal) (w1 : D → H → EReal) (b1 : H → EReal) (w2 : H → O → EReal)
    (b2 : O → EReal) : N → O → EReal :=
  projThenAgg a (relu (projThenAgg a x w1 b1)) w2 b2

/-- On real inputs the two networks are the same function: the first layers agree, the hidden features are real
    again, so the second layers agree too. (The last bias may be anything.) -/
theorem gcnAggFirst_eq_gcnProjFirst (a : N → N → EReal) (x : N → D → EReal) (w1 : D → H → EReal) (b1 : H → EReal)
    (w2 : H → O → EReal) (b2 : O → EReal)
    (ha : ∀ r k, IsReal (a r k)) (hx : ∀ k j, IsReal (x k j)) (hw1 : ∀ j c, IsReal (w1 j c)) (hb1 : ∀ c, IsReal (b1 c))
    (hw2 : ∀ j c, IsReal (w2 j c)) :
    gcnAggFirst a x w1 b1 w2 b2 = gcnProjFirst a x w1 b1 w2 b2 := by
  unfold gcnAggFirst gcnProjFirst
  rw [aggThenProj_eq_projThenAgg a x w1 b1 ha hx hw1]
  exact aggThenProj_eq_projThenAgg a _ w2 b2 ha
    (isReal_relu _ (isReal_projThenAgg a x w1 b1 ha hx hw1 hb1)) hw2

end TwoLayers

end Cert.Lib.GraphConv

end
-- ==== Proof.BodyValue.lean ====
/-
  What each layer's kernel body stores, entry by entry, at the ideal values.

  A body loads a block of 400 rows of the adjacency matrix, the whole feature matrix, the whole weight matrix
  and the bias row, and stores (a · x) · w + b for those 400 rows — the first layer followed by the rectifier
  `max · 0`, the second without it. Rounding the operands to bf16 on the way into the first product is the
  identity at the ideal values, both products accumulate into zero, and the bias row is broadcast over the rows.
  So entry (p, q) of the stored block is the aggregate-first layer of the loaded blocks at (p, q).
-/
import proofs.«110278_g13374528160099_cont_week2b_138_3_alg».proof.Proof.Gen.KernelIdeal.Skeleton
import proofs.«110278_g13374528160099_cont_week2b_138_3_alg».proof.Proof.LibPlainDot
import proofs.«110278_g13374528160099_cont_week2b_138_3_alg».proof.Proof.LibGraphConv
import Idealize.ShloMosaic.Lib.ValueLayout
import Idealize.ShloMosaic.Lib.Pipeline.Value

noncomputable section

open scoped BigOperators

namespace Cert.KernelIdeal.BodyValue

open Cert.KernelIdeal Cert.KernelIdeal.Gen Idealize.ShloMosaic Idealize.ShloMosaic.ValueIdx Cert.Lib.GraphConv

/-- The dimension numbers of the aggregation product: 400 × 10000 by 10000 × 128, plain. -/
theorem dot_agg_eq : dot_S400x10000_S10000x128_S400x128_1_0_0_1_n_n = DotDims.plain 400 10000 128 := rfl

/-- The dimension numbers of the projection product: 400 × 128 by 128 × 128, plain. -/
theorem dot_proj_eq : dot_S400x128_S128x128_S400x128_1_0_0_1_n_n = DotDims.plain 400 128 128 := rfl

/-- The aggregation product into zero at entry (p, j): the sum over the 10000 neighbours. -/
theorem agg_apply (l : FVec Ideal S400x10000 .bf16) (r : FVec Ideal S10000x128 .bf16) (p : Fin 400) (j : Fin 128) :
    matmul dot_S400x10000_S10000x128_S400x128_1_0_0_1_n_n none l r (constant S400x128 .f32 0x00000000#32) (ix2 p j)
      = ∑ k : Fin 10000, l (ix2 p k) * r (ix2 k j) := by
  rw [dot_agg_eq]
  exact Cert.Lib.PlainDot.matmul_zero_apply none l r p j

/-- The projection product into zero at entry (p, q): the sum over the 128 features. -/
theorem proj_apply (l : FVec Ideal S400x128 .f32) (r : FVec Ideal S128x128 .f32) (p : Fin 400) (q : Fin 128) :
    matmul dot_S400x128_S128x128_S400x128_1_0_0_1_n_n none l r (constant S400x128 .f32 0x00000000#32) (ix2 p q)
      = ∑ j : Fin 128, l (ix2 p j) * r (ix2 j q) := by
  rw [dot_proj_eq]
  exact Cert.Lib.PlainDot.matmul_zero_apply none l r p q

/-- The bias row broadcast over the 400 rows, at entry (p, q): the row's entry q. -/
theorem bias_apply (b : FVec Ideal S1x128 .f32) (p : Fin 400) (q : Fin 128) :
    broadcastTo S400x128 (shapeCast S1x128 b shapeCasts_S1x128_S1x128) broadcasts_S1x128_S400x128 (ix2 p q)
      = b (ix2 (0 : Fin 1) q) := by
  rw [shapeCast_self]
  exact broadcastTo_1b_ab_apply b _ p q

/-- The first layer's stored block at entry (p, q): the rectified aggregate-first layer of the loaded blocks. -/
theorem pay0_apply (x0 : FVec Ideal S400x10000 .f32) (x1 : FVec Ideal S10000x128 .f32) (x2 : FVec Ideal S128x128 .f32)
    (x3 : FVec Ideal S1x128 .f32) (p : Fin 400) (q : Fin 128) :
    k0_pay1 (F := Ideal) x0 x1 x2 x3 (ix2 p q)
      = relu (aggThenProj (fun (r : Fin 400) (k : Fin 10000) => x0 (ix2 r k)) (fun (k : Fin 10000) (j : Fin 128) => x1 (ix2 k j))
          (fun (j : Fin 128) (c : Fin 128) => x2 (ix2 j c)) (fun c : Fin 128 => x3 (ix2 (0 : Fin 1) c))) p q := by
  unfold k0_pay1 relu aggThenProj
  show max (_ + _) (Ideal.ofBits .f32 0x00000000#32) = max (_ + _) 0
  rw [Ideal.ofBits_zero_f32]
  refine congrArg (max · 0) ?_
  refine congrArg₂ (· + ·) ?_ (bias_apply x3 p q)
  refine (proj_apply _ x2 p q).trans ?_
  exact Finset.sum_congr rfl fun j _ => congrArg (· * x2 (ix2 j q)) (agg_apply _ _ p j)

/-- The second layer's stored block at entry (p, q): the aggregate-first layer of the loaded blocks. -/
theorem pay1_apply (x0 : FVec Ideal S400x10000 .f32) (x1 : FVec Ideal S10000x128 .f32) (x2 : FVec Ideal S128x128 .f32)
    (x3 : FVec Ideal S1x128 .f32) (p : Fin 400) (q : Fin 128) :
    k1_pay1 (F := Ideal) x0 x1 x2 x3 (ix2 p q)
      = aggThenProj (fun (r : Fin 400) (k : Fin 10000) => x0 (ix2 r k)) (fun (k : Fin 10000) (j : Fin 128) => x1 (ix2 k j))
          (fun (j : Fin 128) (c : Fin 128) => x2 (ix2 j c)) (fun c : Fin 128 => x3 (ix2 (0 : Fin 1) c)) p q := by
  unfold k1_pay1 aggThenProj
  show _ + _ = _ + _
  refine congrArg₂ (· + ·) ?_ (bias_apply x3 p q)
  refine (proj_apply _ x2 p q).trans ?_
  refine Finset.sum_congr rfl fun j _ => congrArg (· * x2 (ix2 j q)) ?_
  refine (agg_apply _ _ p j).trans ?_
  rw [shapeCast_self]
  rfl

end Cert.KernelIdeal.BodyValue

end
-- ==== Proof.GcnArrays.lean ====
/-
  The two-layer graph-convolution network as a function of the six argument arrays, in its two orders.

  `adj` is 10000 × 10000, `x` 10000 × 128, the weights 128 × 128 and the biases rows of 128 entries; the result is
  10000 × 128. `kernelNet` aggregates first in both layers, `referenceNet` projects first in both; on arrays whose
  entries are all real numbers they are the same array.
-/
import proofs.«110278_g13374528160099_cont_week2b_138_3_alg».proof.Proof.LibGraphConv
import Idealize.ShloMosaic.Lib.ValueIdx

noncomputable section

namespace Cert.Gcn

open Idealize.ShloMosaic Idealize.ShloMosaic.ValueIdx Cert.Lib.GraphConv

/-- A rank-2 array as a function of its row and its column. -/
def mat {n m : Nat} (A : (⟨2, ![n, m]⟩ : Shape).Idx → EReal) : Fin n → Fin m → EReal := fun r c => A (ix2 r c)

/-- A rank-1 array as a function of its one coordinate. -/
def row {n : Nat} (b : (⟨1, ![n]⟩ : Shape).Idx → EReal) : Fin n → EReal := fun c => b (ix1 c)

/-- A function of a row and a column as a rank-2 array. -/
def arr {n m : Nat} (f : Fin n → Fin m → EReal) : (⟨2, ![n, m]⟩ : Shape).Idx → EReal := fun i => f (i 0) (i 1)

theorem arr_apply {n m : Nat} (f : Fin n → Fin m → EReal) (r : Fin n) (c : Fin m) : arr f (ix2 r c) = f r c := rfl

theorem mat_arr {n m : Nat} (f : Fin n → Fin m → EReal) : mat (arr f) = f := rfl

/-- Every entry of the array is a real number. -/
def AllReal {s : Shape} (A : s.Idx → EReal) : Prop := ∀ i, IsReal (A i)

abbrev SAdj : Shape := ⟨2, ![10000, 10000]⟩
abbrev SFeat : Shape := ⟨2, ![10000, 128]⟩
abbrev SWeight : Shape := ⟨2, ![128, 128]⟩
abbrev SBias : Shape := ⟨1, ![128]⟩

/-- One aggregate-first layer on arrays, the bias given as a function of the column. -/
def layerAggFirst (a : SAdj.Idx → EReal) (x : SFeat.Idx → EReal) (w : SWeight.Idx → EReal) (b : Fin 128 → EReal) : SFeat.Idx → EReal :=
  arr (aggThenProj (mat a) (mat x) (mat w) b)

/-- The network with both layers aggregating first (the kernel's order). -/
def kernelNet (a : SAdj.Idx → EReal) (x : SFeat.Idx → EReal) (w1 : SWeight.Idx → EReal) (b1 : SBias.Idx → EReal)
    (w2 : SWeight.Idx → EReal) (b2 : SBias.Idx → EReal) : SFeat.Idx → EReal :=
  arr (gcnAggFirst (mat a) (mat x) (mat w1) (row b1) (mat w2) (row b2))

/-- The network with both layers projecting first (the reference's order). -/
def referenceNet (a : SAdj.Idx → EReal) (x : SFeat.Idx → EReal) (w1 : SWeight.Idx → EReal) (b1 : SBias.Idx → EReal)
    (w2 : SWeight.Idx → EReal) (b2 : SBias.Idx → EReal) : SFeat.Idx → EReal :=
  arr (gcnProjFirst (mat a) (mat x) (mat w1) (row b1) (mat w2) (row b2))

/-- The kernel's order is two aggregate-first layers on arrays, the rectifier between them. -/
theorem kernelNet_eq_layers (a : SAdj.Idx → EReal) (x : SFeat.Idx → EReal) (w1 : SWeight.Idx → EReal) (b1 : SBias.Idx → EReal)
    (w2 : SWeight.Idx → EReal) (b2 : SBias.Idx → EReal) :
    kernelNet a x w1 b1 w2 b2
      = layerAggFirst a (arr (relu (aggThenProj (mat a) (mat x) (mat w1) (row b1)))) w2 (row b2) := rfl

/-- On arrays of real numbers the two orders give the same array. -/
theorem kernelNet_eq_referenceNet (a : SAdj.Idx → EReal) (x : SFeat.Idx → EReal) (w1 : SWeight.Idx → EReal) (b1 : SBias.Idx → EReal)
    (w2 : SWeight.Idx → EReal) (b2 : SBias.Idx → EReal)
    (ha : AllReal a) (hx : AllReal x) (hw1 : AllReal w1) (hb1 : AllReal b1) (hw2 : AllReal w2) :
    kernelNet a x w1 b1 w2 b2 = referenceNet a x w1 b1 w2 b2 := by
  unfold kernelNet referenceNet
  rw [gcnAggFirst_eq_gcnProjFirst (mat a) (mat x) (mat w1) (row b1) (mat w2) (row b2)
    (fun r k => ha _) (fun k j => hx _) (fun j c => hw1 _) (fun c => hb1 _) (fun j c => hw2 _)]

end Cert.Gcn

end
-- ==== Proof.RegionValue.lean ====
/-
  Each region's output array after its run, as one function of the arrays the region finds.

  The grid has 25 points; at point `t` the body is given rows 400 t … 400 t + 399 of the adjacency matrix and the
  whole feature matrix, weight matrix and bias row, and its stored block is written back to the same rows of the
  output array. Entry (p, q) of the stored block is the aggregate-first layer of the loaded blocks, and an entry
  of an aggregate-first layer reads the adjacency matrix only on its own row; so the block is rows 400 t … of the
  layer of the whole arrays, and since the 25 blocks cover the 10000 rows the output array ends as that layer.
-/
import proofs.«110278_g13374528160099_cont_week2b_138_3_alg».proof.Proof.Gen.KernelIdeal.Frame
import proofs.«110278_g13374528160099_cont_week2b_138_3_alg».proof.Proof.BodyValue
import proofs.«110278_g13374528160099_cont_week2b_138_3_alg».proof.Proof.GcnArrays

set_option maxRecDepth 16384

noncomputable section

open scoped BigOperators

namespace Cert.KernelIdeal.RegionValue

open Cert.KernelIdeal Cert.KernelIdeal.Gen Cert.KernelIdeal.BodyValue Idealize.ShloMosaic Idealize.ShloMosaic.TcCoe
open Idealize.ShloMosaic.ValueIdx Idealize.ShloMosaic.Pipeline Idealize.SL.Sem Cert.Lib.GraphConv Cert.Gcn

theorem hz : (![0, 0] : Fin 2 → Nat) = fun _ => 0 := funext fun a => by fin_cases a <;> rfl

/-! ## Layer one: the region's output array from the arrays it finds -/

section Region0

variable (V : (c : Dev nD) → (b : Ref sig .tc) → Buf (Elt Ideal) ((c : Thread nD τ).loc b))

/-- The layer as one function of the arrays the region finds: adjacency, features, weights, and the bias row. -/
def layer0 (c : Dev nD) : S10000x128.Idx → EReal :=
  arr (relu (aggThenProj (mat (V c main_arg0 : S10000x10000.Idx → EReal)) (mat (V c main_arg1 : S10000x128.Idx → EReal))
    (mat (V c main_arg2 : S128x128.Idx → EReal)) (fun q : Fin 128 => (V c main_v0 : S1x128.Idx → EReal) (ix2 (0 : Fin 1) q))))

/-- The windows' block indices at grid point `t`: the adjacency block and the output block are block `t` of 25 along the
    rows, the other three windows are their whole arrays. Decided over the grid. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of block `t` is row `400 t + p` of the array. -/
def rowOf0 (t : Fin cfg0.N) (p : Fin 400) : Fin 10000 :=
  ⟨t.val * 400 + p.val, by have ht : t.val < 25 := t.isLt; have := p.isLt; omega⟩

/-- The adjacency block at point `t`, entry (p, k): row `400 t + p` of the adjacency matrix. -/
theorem read0_0 (c : Dev nD) (t : Fin cfg0.N) (p : Fin 400) (k : Fin 10000) :
    iblk0 V c 0 t (ix2 p k) = (V c main_arg0 : S10000x10000.Idx → EReal) (ix2 (rowOf0 t p) k) := by
  obtain ⟨e0, e1, -⟩ := idx_facts0 t
  show (V c main_arg0 : S10000x10000.Idx → EReal) (((cfg0.win 0).blk t).view.emb (ix2 p k)) = _
  refine congrArg _ (funext fun a => Fin.ext ?_)
  match a with
  | ⟨0, _⟩ => show win0_0.index t (0 : Fin 2) * 400 + 1 * p.val = t.val * 400 + p.val; omega
  | ⟨1, _⟩ => show win0_0.index t (1 : Fin 2) * 10000 + 1 * k.val = k.val; omega

/-- The feature block at any point is the whole feature matrix. -/
theorem read0_1 (c : Dev nD) (t : Fin cfg0.N) (k : Fin 10000) (j : Fin 128) :
    iblk0 V c 1 t (ix2 k j) = (V c main_arg1 : S10000x128.Idx → EReal) (ix2 k j) := by
  obtain ⟨-, -, e2, e3, -⟩ := idx_facts0 t
  show (V c main_arg1 : S10000x128.Idx → EReal) (((cfg0.win 1).blk t).view.emb (ix2 k j)) = _
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * j.val = j.val; omega

/-- The weight block at any point is the whole weight matrix. -/
theorem read0_2 (c : Dev nD) (t : Fin cfg0.N) (j : Fin 128) (q : Fin 128) :
    iblk0 V c 2 t (ix2 j q) = (V c main_arg2 : S128x128.Idx → EReal) (ix2 j q) := by
  obtain ⟨-, -, -, -, e4, e5, -⟩ := idx_facts0 t
  show (V c main_arg2 : S128x128.Idx → EReal) (((cfg0.win 2).blk t).view.emb (ix2 j q)) = _
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * q.val = q.val; omega

/-- The bias block at any point is the whole bias row. -/
theorem read0_3 (c : Dev nD) (t : Fin cfg0.N) (q : Fin 128) :
    iblk0 V c 3 t (ix2 (0 : Fin 1) q) = (V c main_v0 : S1x128.Idx → EReal) (ix2 (0 : Fin 1) q) := by
  obtain ⟨-, -, -, -, -, -, e6, e7, -⟩ := idx_facts0 t
  show (V c main_v0 : S1x128.Idx → EReal) (((cfg0.win 3).blk t).view.emb (ix2 (0 : Fin 1) q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- Entry (p, q) of the output block at point `t` sits at row `400 t + p`, column `q` of the output array. -/
theorem emb0_4 (t : Fin cfg0.N) (p : Fin 400) (q : Fin 128) :
    ((cfg0.win 4).blk t).view.emb (ix2 p q) = (ix2 (rowOf0 t p) q : S10000x128.Idx) := by
  obtain ⟨-, -, -, -, -, -, -, -, e8, e9⟩ := idx_facts0 t
  refine funext fun a => Fin.ext ?_
  match a with
  | ⟨0, _⟩ => show win0_4.index t (0 : Fin 2) * 400 + 1 * p.val = t.val * 400 + p.val; omega
  | ⟨1, _⟩ => show win0_4.index t (1 : Fin 2) * 128 + 1 * q.val = q.val; omega

/-- What point `t` writes back is block `t` of the layer of the arrays the region finds. -/
theorem flushed0_eq (c : Dev nD) (t : Fin cfg0.N) :
    (dat0 V c).flushed 4 t = ((cfg0.win 4).blk t).view.read (Elt Ideal) (layer0 V c) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz,
    View.ld_unit_zero (S := S128x128) hz, View.ld_unit_zero (S := S1x128) hz]
  funext y
  obtain ⟨p, q, rfl⟩ : ∃ (p : Fin 400) (q : Fin 128), y = ix2 p q := ⟨y 0, y 1, eq_ix2 y⟩
  show k0_pay1 (F := Ideal) (iblk0 V c 0 t) (iblk0 V c 1 t) (iblk0 V c 2 t) (iblk0 V c 3 t) (ix2 p q)
    = layer0 V c (((cfg0.win 4).blk t).view.emb (ix2 p q))
  rw [emb0_4 t p q]
  refine (pay0_apply (iblk0 V c 0 t) (iblk0 V c 1 t) (iblk0 V c 2 t) (iblk0 V c 3 t) p q).trans ?_
  exact congrArg (max · 0) (aggThenProj_congr _ _ _ _ _ _ _ _ p (rowOf0 t p) q (fun k => read0_0 V c t p k)
    (fun k j => read0_1 V c t k j) (fun j => read0_2 V c t j q) (read0_3 V c t q))

/-- An index of the output array is in point `t`'s block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v2).slice (win0_4.rect t)).set ↔ _
  rw [View.set_slice_whole, Rect.mem_set_unit]
  exact Iff.rfl

/-- The 25 blocks of 400 rows cover the 10000 rows: row `r` is in block `r / 400`. -/
theorem cover0 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : grid0.N = 25 := N_0
  have ht : (i 0).val / 400 < grid0.N := by rw [hN]; omega
  refine ⟨⟨(i 0).val / 400, ht⟩, flush0_4 _, ?_⟩
  rw [mem_blk0]
  obtain ⟨-, -, -, -, -, -, -, -, e8, e9⟩ := idx_facts0 ⟨(i 0).val / 400, ht⟩
  intro a
  match a with
  | ⟨0, _⟩ =>
    show win0_4.index ⟨(i 0).val / 400, ht⟩ (0 : Fin 2) * 400 ≤ (i 0).val ∧ (i 0).val < win0_4.index ⟨(i 0).val / 400, ht⟩ (0 : Fin 2) * 400 + 400
    rw [e8]
    show (i 0).val / 400 * 400 ≤ (i 0).val ∧ (i 0).val < (i 0).val / 400 * 400 + 400
    omega
  | ⟨1, _⟩ =>
    show win0_4.index ⟨(i 0).val / 400, ht⟩ (1 : Fin 2) * 128 ≤ (i 1).val ∧ (i 1).val < win0_4.index ⟨(i 0).val / 400, ht⟩ (1 : Fin 2) * 128 + 128
    omega

/-- The output array after the region: the layer of the arrays the region finds. -/
theorem final0 (c : Dev nD) : (dat0 V c).arrAt 4 cfg0.N = layer0 V c :=
  (dat0 V c).arrAt_eq_of_cover 4 (layer0 V c) (fun t _ => flushed0_eq V c t) (cover0)

end Region0

/-! ## Layer two: the region's output array from the arrays it finds -/

section Region1

variable (V : (c : Dev nD) → (b : Ref sig .tc) → Buf (Elt Ideal) ((c : Thread nD τ).loc b))

/-- The layer as one function of the arrays the region finds: adjacency, features, weights, and the bias row. -/
def layer1 (c : Dev nD) : S10000x128.Idx → EReal :=
  arr ((aggThenProj (mat (V c main_arg0 : S10000x10000.Idx → EReal)) (mat (V c main_v2 : S10000x128.Idx → EReal))
    (mat (V c main_arg4 : S128x128.Idx → EReal)) (fun q : Fin 128 => (V c main_v1 : S1x128.Idx → EReal) (ix2 (0 : Fin 1) q))))

/-- The windows' block indices at grid point `t`: the adjacency block and the output block are block `t` of 25 along the
    rows, the other three windows are their whole arrays. Decided over the grid. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of block `t` is row `400 t + p` of the array. -/
def rowOf1 (t : Fin cfg1.N) (p : Fin 400) : Fin 10000 :=
  ⟨t.val * 400 + p.val, by have ht : t.val < 25 := t.isLt; have := p.isLt; omega⟩

/-- The adjacency block at point `t`, entry (p, k): row `400 t + p` of the adjacency matrix. -/
theorem read1_0 (c : Dev nD) (t : Fin cfg1.N) (p : Fin 400) (k : Fin 10000) :
    iblk1 V c 0 t (ix2 p k) = (V c main_arg0 : S10000x10000.Idx → EReal) (ix2 (rowOf1 t p) k) := by
  obtain ⟨e0, e1, -⟩ := idx_facts1 t
  show (V c main_arg0 : S10000x10000.Idx → EReal) (((cfg1.win 0).blk t).view.emb (ix2 p k)) = _
  refine congrArg _ (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * k.val = k.val; omega

/-- The feature block at any point is the whole feature matrix. -/
theorem read1_1 (c : Dev nD) (t : Fin cfg1.N) (k : Fin 10000) (j : Fin 128) :
    iblk1 V c 1 t (ix2 k j) = (V c main_v2 : S10000x128.Idx → EReal) (ix2 k j) := by
  obtain ⟨-, -, e2, e3, -⟩ := idx_facts1 t
  show (V c main_v2 : S10000x128.Idx → EReal) (((cfg1.win 1).blk t).view.emb (ix2 k j)) = _
  refine congrArg _ (funext fun a => Fin.ext ?_)
  match a with
  | ⟨0, _⟩ => show win1_1.index t (0 : Fin 2) * 10000 + 1 * k.val = k.val; omega
  | ⟨1, _⟩ => show win1_1.index t (1 : Fin 2) * 128 + 1 * j.val = j.val; omega

/-- The weight block at any point is the whole weight matrix. -/
theorem read1_2 (c : Dev nD) (t : Fin cfg1.N) (j : Fin 128) (q : Fin 128) :
    iblk1 V c 2 t (ix2 j q) = (V c main_arg4 : S128x128.Idx → EReal) (ix2 j q) := by
  obtain ⟨-, -, -, -, e4, e5, -⟩ := idx_facts1 t
  show (V c main_arg4 : S128x128.Idx → EReal) (((cfg1.win 2).blk t).view.emb (ix2 j q)) = _
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * q.val = q.val; omega

/-- The bias block at any point is the whole bias row. -/
theorem read1_3 (c : Dev nD) (t : Fin cfg1.N) (q : Fin 128) :
    iblk1 V c 3 t (ix2 (0 : Fin 1) q) = (V c main_v1 : S1x128.Idx → EReal) (ix2 (0 : Fin 1) q) := by
  obtain ⟨-, -, -, -, -, -, e6, e7, -⟩ := idx_facts1 t
  show (V c main_v1 : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- Entry (p, q) of the output block at point `t` sits at row `400 t + p`, column `q` of the output array. -/
theorem emb1_4 (t : Fin cfg1.N) (p : Fin 400) (q : Fin 128) :
    ((cfg1.win 4).blk t).view.emb (ix2 p q) = (ix2 (rowOf1 t p) q : S10000x128.Idx) := by
  obtain ⟨-, -, -, -, -, -, -, -, e8, e9⟩ := idx_facts1 t
  refine funext fun a => Fin.ext ?_
  match a with
  | ⟨0, _⟩ => show win1_4.index t (0 : Fin 2) * 400 + 1 * p.val = t.val * 400 + p.val; omega
  | ⟨1, _⟩ => show win1_4.index t (1 : Fin 2) * 128 + 1 * q.val = q.val; omega

/-- What point `t` writes back is block `t` of the layer of the arrays the region finds. -/
theorem flushed1_eq (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S128x128) hz, View.ld_unit_zero (S := S1x128) hz]
  funext y
  obtain ⟨p, q, rfl⟩ : ∃ (p : Fin 400) (q : Fin 128), y = ix2 p q := ⟨y 0, y 1, eq_ix2 y⟩
  show k1_pay1 (F := Ideal) (iblk1 V c 0 t) (iblk1 V c 1 t) (iblk1 V c 2 t) (iblk1 V c 3 t) (ix2 p q)
    = layer1 V c (((cfg1.win 4).blk t).view.emb (ix2 p q))
  rw [emb1_4 t p q]
  refine (pay1_apply (iblk1 V c 0 t) (iblk1 V c 1 t) (iblk1 V c 2 t) (iblk1 V c 3 t) p q).trans ?_
  refine aggThenProj_congr (R := Fin 400) (R' := Fin 10000) (K := Fin 10000) (J := Fin 128) (C := Fin 128)
    (fun r k => iblk1 V c 0 t (ix2 r k)) (mat (V c main_arg0 : S10000x10000.Idx → EReal))
    (fun k j => iblk1 V c 1 t (ix2 k j)) (mat (V c main_v2 : S10000x128.Idx → EReal))
    (fun j c' => iblk1 V c 2 t (ix2 j c')) (mat (V c main_arg4 : S128x128.Idx → EReal))
    (fun c' => iblk1 V c 3 t (ix2 (0 : Fin 1) c')) (fun q' : Fin 128 => (V c main_v1 : S1x128.Idx → EReal) (ix2 (0 : Fin 1) q'))
    p (rowOf1 t p) q ?_ ?_ ?_ ?_
  · exact fun k => read1_0 V c t p k
  · exact fun k j => read1_1 V c t k j
  · exact fun j => read1_2 V c t j q
  · exact read1_3 V c t q

/-- An index of the output array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- The 25 blocks of 400 rows cover the 10000 rows: row `r` is in block `r / 400`. -/
theorem cover1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : grid1.N = 25 := N_1
  have ht : (i 0).val / 400 < grid1.N := by rw [hN]; omega
  refine ⟨⟨(i 0).val / 400, ht⟩, flush1_4 _, ?_⟩
  rw [mem_blk1]
  obtain ⟨-, -, -, -, -, -, -, -, e8, e9⟩ := idx_facts1 ⟨(i 0).val / 400, ht⟩
  intro a
  match a with
  | ⟨0, _⟩ =>
    show win1_4.index ⟨(i 0).val / 400, ht⟩ (0 : Fin 2) * 400 ≤ (i 0).val ∧ (i 0).val < win1_4.index ⟨(i 0).val / 400, ht⟩ (0 : Fin 2) * 400 + 400
    rw [e8]
    show (i 0).val / 400 * 400 ≤ (i 0).val ∧ (i 0).val < (i 0).val / 400 * 400 + 400
    omega
  | ⟨1, _⟩ =>
    show win1_4.index ⟨(i 0).val / 400, ht⟩ (1 : Fin 2) * 128 ≤ (i 1).val ∧ (i 1).val < win1_4.index ⟨(i 0).val / 400, ht⟩ (1 : Fin 2) * 128 + 128
    omega

/-- The output array after the region: the layer of the arrays the region finds. -/
theorem final1 (c : Dev nD) : (dat1 V c).arrAt 4 cfg1.N = layer1 V c :=
  (dat1 V c).arrAt_eq_of_cover 4 (layer1 V c) (fun t _ => flushed1_eq V c t) (cover1)

end Region1

end Cert.KernelIdeal.RegionValue

end
-- ==== Proof.KernelValue.lean ====
/-
  The kernel program's result array is the aggregate-first network of its arguments.

  The program reshapes the two bias vectors into rows, runs the first layer's region on (adj, x, W1, bias row 1)
  into the hidden features, then the second layer's region on (adj, hidden features, W2, bias row 2) into the
  result. Neither the reshapes nor the regions write an argument, each region leaves its output array at its layer
  of the arrays it found, and a vector reshaped to one row reads back entry by entry; so the result is the second
  aggregate-first layer of the rectified first one.
-/
import proofs.«110278_g13374528160099_cont_week2b_138_3_alg».proof.Proof.RegionValue
import Idealize.ShloMosaic.Lib.ValueLayout
import Idealize.ShloMosaic.Lib.StableHlo.Run

set_option maxRecDepth 16384

noncomputable section

namespace Cert.KernelIdeal.NetValue

open Cert.KernelIdeal Cert.KernelIdeal.Gen Cert.KernelIdeal.RegionValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.GraphConv Cert.Gcn

local notation "𝕄" => MT nD τ sig Unit (Elt Ideal) ℕ (UR sig nD τ) ℕ

variable (m : (ℓ : Loc nD τ sig) → Buf (Elt Ideal) ℓ) (ρ : Dev nD → PrngReg)

/-! ## The arrays the first region finds -/

theorem first_adj (c : Dev nD) : (V1 m ρ c main_arg0 : S10000x10000.Idx → EReal) = m ((c : Thread nD τ).loc main_arg0) :=
  StableHlo.after_of_forall_not_mem (b := Proc.devRef .tc main_arg0) _ _ (List.forall_iff_forall_mem.mp (by
      simp only [hostOps0, List.Forall, StableHlo.reshape_writes, Finset.mem_singleton]
      repeat' apply And.intro
      all_goals exact StableHlo.devRef_ne_of_ne (by decide)))

theorem first_feat (c : Dev nD) : (V1 m ρ c main_arg1 : S10000x128.Idx → EReal) = m ((c : Thread nD τ).loc main_arg1) :=
  StableHlo.after_of_forall_not_mem (b := Proc.devRef .tc main_arg1) _ _ (List.forall_iff_forall_mem.mp (by
      simp only [hostOps0, List.Forall, StableHlo.reshape_writes, Finset.mem_singleton]
      repeat' apply And.intro
      all_goals exact StableHlo.devRef_ne_of_ne (by decide)))

theorem first_weight (c : Dev nD) : (V1 m ρ c main_arg2 : S128x128.Idx → EReal) = m ((c : Thread nD τ).loc main_arg2) :=
  StableHlo.after_of_forall_not_mem (b := Proc.devRef .tc main_arg2) _ _ (List.forall_iff_forall_mem.mp (by
      simp only [hostOps0, List.Forall, StableHlo.reshape_writes, Finset.mem_singleton]
      repeat' apply And.intro
      all_goals exact StableHlo.devRef_ne_of_ne (by decide)))

/-- The first bias vector reshaped to one row, read at column `q`. -/
theorem first_bias (c : Dev nD) :
    (fun q : Fin 128 => (V1 m ρ c main_v0 : S1x128.Idx → EReal) (ix2 (0 : Fin 1) q)) = row (m ((c : Thread nD τ).loc main_arg3) : S128.Idx → EReal) := by
  have e : (V1 m ρ c main_v0 : S1x128.Idx → EReal)
      = shapeCast S1x128 (m ((c : Thread nD τ).loc main_arg3) : S128.Idx → EReal) shapeCasts_S128_S1x128 := by
    show StableHlo.after hostOps0 (W0 m ρ c) (Proc.devRef .tc main_v0) = _
    after_results
    rfl
  funext q
  rw [e]
  exact shapeCast_a_1a_apply _ _ (0 : Fin 1) q

/-! ## The arrays the second region finds -/

theorem second_adj (c : Dev nD) : (V2 m ρ c main_arg0 : S10000x10000.Idx → EReal) = m ((c : Thread nD τ).loc main_arg0) :=
  ((W2_arr m ρ c 0).trans (((dat0 (V1 m ρ) c).arrAt_in 0 rfl _).trans (A_eq0 (V1 m ρ) c 0))).trans (first_adj m ρ c)

/-- The hidden features: the first region's output array. -/
theorem second_feat (c : Dev nD) : (V2 m ρ c main_v2 : S10000x128.Idx → EReal)
    = arr (relu (aggThenProj (mat (m ((c : Thread nD τ).loc main_arg0) : S10000x10000.Idx → EReal)) (mat (m ((c : Thread nD τ).loc main_arg1) : S10000x128.Idx → EReal))
        (mat (m ((c : Thread nD τ).loc main_arg2) : S128x128.Idx → EReal)) (row (m ((c : Thread nD τ).loc main_arg3) : S128.Idx → EReal)))) := by
  refine ((W2_arr m ρ c 4).trans (final0 (V1 m ρ) c)).trans ?_
  unfold layer0
  rw [first_adj, first_feat, first_weight, first_bias]

theorem second_weight (c : Dev nD) : (V2 m ρ c main_arg4 : S128x128.Idx → EReal) = m ((c : Thread nD τ).loc main_arg4) :=
  (W2_of_ne m ρ c main_arg4 (by decide)).trans (StableHlo.after_of_forall_not_mem (b := Proc.devRef .tc main_arg4) _ _ (List.forall_iff_forall_mem.mp (by
      simp only [hostOps0, List.Forall, StableHlo.reshape_writes, Finset.mem_singleton]
      repeat' apply And.intro
      all_goals exact StableHlo.devRef_ne_of_ne (by decide))))

/-- The second bias vector reshaped to one row, read at column `q`. -/
theorem second_bias (c : Dev nD) :
    (fun q : Fin 128 => (V2 m ρ c main_v1 : S1x128.Idx → EReal) (ix2 (0 : Fin 1) q)) = row (m ((c : Thread nD τ).loc main_arg5) : S128.Idx → EReal) := by
  have e : (V2 m ρ c main_v1 : S1x128.Idx → EReal)
      = shapeCast S1x128 (m ((c : Thread nD τ).loc main_arg5) : S128.Idx → EReal) shapeCasts_S128_S1x128 := by
    refine (W2_of_ne m ρ c main_v1 (by decide)).trans ?_
    show StableHlo.after hostOps0 (W0 m ρ c) (Proc.devRef .tc main_v1) = _
    after_results
    rfl
  funext q
  rw [e]
  exact shapeCast_a_1a_apply _ _ (0 : Fin 1) q

/-! ## The result array -/

/-- What the last region leaves in the result array: the aggregate-first network of the launch arguments. -/
theorem result_eq (c : Dev nD) : (W3 m ρ c (Proc.devRef .tc main_v3) : S10000x128.Idx → EReal)
    = kernelNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W3_arr m ρ c 4).trans (final1 (V2 m ρ) c)).trans ?_
  rw [kernelNet_eq_layers]
  unfold layer1 layerAggFirst
  rw [second_adj, second_feat, second_weight, second_bias]

end Cert.KernelIdeal.NetValue

end
-- ==== Proof.ReferenceValue.lean ====
/-
  The reference program's result, read one operation at a time, is the project-first network of its arguments.

  Its first layer is `dot_general(adj, dot_general(x, W1))` plus the bias row broadcast over the rows, then
  `maximum · 0`; its second layer the same on the hidden features without the maximum. Each `dot_general` is at
  the ideal values the sum over its one contracted axis, so entry (r, c) of each layer is
  Σ_k adj r k · (Σ_j v k j · W j c) + b c.
-/
import proofs.«110278_g13374528160099_cont_week2b_138_3_alg».proof.Proof.Gen.ReferenceIdeal.Read
import proofs.«110278_g13374528160099_cont_week2b_138_3_alg».proof.Proof.GcnArrays

noncomputable section

open scoped BigOperators

namespace Cert.ReferenceIdeal.NetValue

open Cert.ReferenceIdeal Cert.ReferenceIdeal.Gen Cert.ReferenceIdeal.Read Idealize.ShloMosaic Idealize.ShloMosaic.ValueIdx
open Cert.Lib.GraphConv Cert.Gcn

/-! ## The operations' index maps at an entry (r, c) -/

theorem lidx_agg (r : Fin 10000) (c : Fin 128) (k : Fin 10000) : lidx_main_v1 (ix2 r c) k = ix2 r k :=
  funext fun a => Fin.ext (by match a with | ⟨0, _⟩ => rfl | ⟨1, _⟩ => rfl)
theorem ridx_agg (r : Fin 10000) (c : Fin 128) (k : Fin 10000) : ridx_main_v1 (ix2 r c) k = ix2 k c :=
  funext fun a => Fin.ext (by match a with | ⟨0, _⟩ => rfl | ⟨1, _⟩ => rfl)
theorem lidx_proj (k : Fin 10000) (c : Fin 128) (j : Fin 128) : lidx_main_v0 (ix2 k c) j = ix2 k j :=
  funext fun a => Fin.ext (by match a with | ⟨0, _⟩ => rfl | ⟨1, _⟩ => rfl)
theorem ridx_proj (k : Fin 10000) (c : Fin 128) (j : Fin 128) : ridx_main_v0 (ix2 k c) j = ix2 j c :=
  funext fun a => Fin.ext (by match a with | ⟨0, _⟩ => rfl | ⟨1, _⟩ => rfl)
theorem idx_bias (r : Fin 10000) (c : Fin 128) : idx_main_v2 (idx_main_v3 (ix2 r c)) = ix1 c :=
  funext fun a => Fin.ext (by match a with | ⟨0, _⟩ => rfl)

/-! ## The hidden features -/

/-- The first layer with its rectifier. -/
theorem hidden_eq (x0 : SAdj.Idx → EReal) (x1 : SFeat.Idx → EReal) (x2 : SWeight.Idx → EReal) (x3 : SBias.Idx → EReal) :
    val_main_v5 (F := Ideal) x0 x1 x2 x3 = arr (relu (projThenAgg (mat x0) (mat x1) (mat x2) (row x3))) := by
  funext i
  obtain ⟨r, c, rfl⟩ : ∃ (r : Fin 10000) (c : Fin 128), i = ix2 r c := ⟨i 0, i 1, eq_ix2 i⟩
  rw [val_main_v5_apply, val_main_v4_apply, val_main_v1_apply, val_main_v3_apply, val_main_v2_apply,
    val_main_call0_v0_apply, val_main_call0_cst_apply]
  simp only [val_main_v0_apply, lidx_agg, ridx_agg, lidx_proj, ridx_proj, idx_bias]
  show max (_ + _) (Ideal.ofBits .f32 0x00000000#32) = max (_ + _) 0
  rw [Ideal.ofBits_zero_f32]
  rfl

/-! ## The result -/

theorem lidx_agg' (r : Fin 10000) (c : Fin 128) (k : Fin 10000) : lidx_main_v7 (ix2 r c) k = ix2 r k :=
  funext fun a => Fin.ext (by match a with | ⟨0, _⟩ => rfl | ⟨1, _⟩ => rfl)
theorem ridx_agg' (r : Fin 10000) (c : Fin 128) (k : Fin 10000) : ridx_main_v7 (ix2 r c) k = ix2 k c :=
  funext fun a => Fin.ext (by match a with | ⟨0, _⟩ => rfl | ⟨1, _⟩ => rfl)
theorem lidx_proj' (k : Fin 10000) (c : Fin 128) (j : Fin 128) : lidx_main_v6 (ix2 k c) j = ix2 k j :=
  funext fun a => Fin.ext (by match a with | ⟨0, _⟩ => rfl | ⟨1, _⟩ => rfl)
theorem ridx_proj' (k : Fin 10000) (c : Fin 128) (j : Fin 128) : ridx_main_v6 (ix2 k c) j = ix2 j c :=
  funext fun a => Fin.ext (by match a with | ⟨0, _⟩ => rfl | ⟨1, _⟩ => rfl)
theorem idx_bias' (r : Fin 10000) (c : Fin 128) : idx_main_v8 (idx_main_v9 (ix2 r c)) = ix1 c :=
  funext fun a => Fin.ext (by match a with | ⟨0, _⟩ => rfl)

/-- The second layer on the hidden features: the whole reference is the project-first network. -/
theorem result_eq (x0 : SAdj.Idx → EReal) (x1 : SFeat.Idx → EReal) (x2 : SWeight.Idx → EReal) (x3 : SBias.Idx → EReal)
    (x4 : SWeight.Idx → EReal) (x5 : SBias.Idx → EReal) :
    val_main_v10 (F := Ideal) x0 x1 x2 x3 x4 x5 = referenceNet x0 x1 x2 x3 x4 x5 := by
  funext i
  obtain ⟨r, c, rfl⟩ : ∃ (r : Fin 10000) (c : Fin 128), i = ix2 r c := ⟨i 0, i 1, eq_ix2 i⟩
  rw [val_main_v10_apply, val_main_v7_apply, val_main_v9_apply, val_main_v8_apply]
  simp only [val_main_v6_apply, hidden_eq, lidx_agg', ridx_agg', lidx_proj', ridx_proj', idx_bias']
  rfl

end Cert.ReferenceIdeal.NetValue

end
-- ==== Proof.FiniteInputs.lean ====
/-
  The precondition, read back: every entry of every argument array is a real number.

  The precondition is the conjunction, over the six argument arrays, of "every entry's absolute value is below
  +∞". At the ideal values an absolute value `max x (-x)` is below +∞ exactly when `x` is neither infinity,
  that is, when `x` is a real number.
-/
import proofs.«110278_g13374528160099_cont_week2b_138_3_alg».proof.Pre_finite_inputs
import proofs.«110278_g13374528160099_cont_week2b_138_3_alg».proof.Proof.GcnArrays
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx Cert.Lib.GraphConv Cert.Gcn

variable [Facts]
open Facts

instance : Subsingleton S_.Idx := ⟨fun a b => funext fun d => d.elim0⟩

/-- The word 0x7F800000 is +∞. -/
theorem ofBits_inf : Ideal.ofBits .f32 0x7F800000#32 = (⊤ : EReal) := by simp [Ideal.ofBits, Ideal.ieee]

/-- An extended real whose absolute value is below +∞ is a real number. -/
theorem isReal_of_abs_lt_inf (x : EReal)
    (h : FloatOps.cmpf (F := Ideal) (φ := .f32) .olt (FloatOps.hostAbsf (F := Ideal) (φ := .f32) x) (Ideal.ofBits .f32 0x7F800000#32) = 1#1) :
    IsReal x := by
  rw [ofBits_inf] at h
  have hlt : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  induction x using EReal.rec with
  | bot => exact absurd hlt (by simp)
  | coe r => exact ⟨r, rfl⟩
  | top => exact absurd hlt (by simp)

/-- One conjunct of the precondition: `all (|a| < +∞)` gives every entry of `a` real. -/
theorem allReal_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) : AllReal a := fun i =>
  isReal_of_abs_lt_inf (a i) (Host.reduce_andi_all _ _ hr hu ix0 h i)

/-- The precondition gives all six arrays real. -/
theorem allReal_of_pre (a0 : FVec Ideal S10000x10000 .f32) (a1 : FVec Ideal S10000x128 .f32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    AllReal a0 ∧ AllReal a1 ∧ AllReal a2 ∧ AllReal a3 ∧ AllReal a4 ∧ AllReal a5 := by
  have h0 := congrFun h ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ e0, allReal_of_all a1 _ _ _ e1, allReal_of_all a2 _ _ _ e2, allReal_of_all a3 _ _ _ e3,
    allReal_of_all a4 _ _ _ e4, allReal_of_all a5 _ _ _ e5⟩

end Cert.Pre_finite_inputs.Finite

end
-- ==== Proof.lean ====
/-
  A two-layer graph-convolution network on a dense 10000 × 10000 adjacency matrix,

      h = max (adj · x · W1 + b1) 0,      out = adj · h · W2 + b2,

  computed by a kernel that brackets each layer as (adj · v) · W — one region per layer, each grid point taking
  400 rows of adj against the whole feature matrix, weights and bias row — and by a reference that brackets it as
  adj · (v · W). At the ideal values the operands' rounding to bf16 on the way into the kernel's first product is
  the identity and every product is an exact sum, so the two programs differ only in the bracketing of a product
  of three matrices. On the extended reals that bracketing matters at the infinities; under the precondition
  every argument entry is a real number, both bracketings are the coercion of the same real double sum
  (distributivity, exchanging the two sums, associativity in ℝ), the hidden features are real again after the
  rectifier, and so the second layers agree as well.

  The modules: LibGraphConv (the two orders of a layer over the extended reals and their agreement on real
  entries), LibPlainDot (a plain matrix product read at one entry), GcnArrays (the two networks as functions of
  the six argument arrays), BodyValue (what each kernel body stores, entry by entry), RegionValue (each region's
  output array as its layer of the arrays it finds), KernelValue and KernelRun (the kernel program's result
  array, and its run), ReferenceValue (the reference's result), FiniteInputs (the precondition read back).
  The idealization rewrote no operation, so `preserves` has nothing to state.
-/
import proofs.«110278_g13374528160099_cont_week2b_138_3_alg».proof.Defs
import proofs.«110278_g13374528160099_cont_week2b_138_3_alg».proof.Proof.Gen.Kernel
import proofs.«110278_g13374528160099_cont_week2b_138_3_alg».proof.Proof.Gen.Kernel.Skeleton
import proofs.«110278_g13374528160099_cont_week2b_138_3_alg».proof.Proof.Gen.Kernel.Launch
import proofs.«110278_g13374528160099_cont_week2b_138_3_alg».proof.Proof.Gen.Kernel.Points
import proofs.«110278_g13374528160099_cont_week2b_138_3_alg».proof.Proof.Gen.Kernel.Frame
import proofs.«110278_g13374528160099_cont_week2b_138_3_alg».proof.Proof.Gen.KernelIdeal
import proofs.«110278_g13374528160099_cont_week2b_138_3_alg».proof.Proof.Gen.KernelIdeal.Skeleton
import proofs.«110278_g13374528160099_cont_week2b_138_3_alg».proof.Proof.Gen.KernelIdeal.Launch
import proofs.«110278_g13374528160099_cont_week2b_138_3_alg».proof.Proof.Gen.KernelIdeal.Points
import proofs.«110278_g13374528160099_cont_week2b_138_3_alg».proof.Proof.Gen.KernelIdeal.Frame
import proofs.«110278_g13374528160099_cont_week2b_138_3_alg».proof.Proof.Gen.ReferenceIdeal
import proofs.«110278_g13374528160099_cont_week2b_138_3_alg».proof.Proof.Gen.Pre_finite_inputs
import proofs.«110278_g13374528160099_cont_week2b_138_3_alg».proof.Proof.Gen.ReferenceIdeal.Run
import proofs.«110278_g13374528160099_cont_week2b_138_3_alg».proof.Proof.Gen.ReferenceIdeal.Read
import proofs.«110278_g13374528160099_cont_week2b_138_3_alg».proof.Proof.KernelRun
import proofs.«110278_g13374528160099_cont_week2b_138_3_alg».proof.Proof.KernelValue
import proofs.«110278_g13374528160099_cont_week2b_138_3_alg».proof.Proof.ReferenceValue
import proofs.«110278_g13374528160099_cont_week2b_138_3_alg».proof.Proof.FiniteInputs
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the aggregate-first network of the kernel's arguments in their result arrays: the
    kernel computes it as written, and the reference's project-first network equals it because the precondition
    makes every argument entry a real number. -/
theorem algebraic : Cert.algebraic_KernelIdeal_ReferenceIdeal := by
  intro m ρ m' ρ' hpre hagree
  refine ⟨fun c => Cert.Gcn.kernelNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.NetValue.result_eq m ρ c), (h c).2⟩)
      (Cert.KernelIdeal.NetRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, -⟩ := Cert.Pre_finite_inputs.Finite.allReal_of_pre _ _ _ _ _ _ (hpre c)
    rw [Cert.ReferenceIdeal.Read.val_main_v10_eq, Cert.ReferenceIdeal.NetValue.result_eq, (hagree c).1, (hagree c).2.1,
      (hagree c).2.2.1, (hagree c).2.2.2.1, (hagree c).2.2.2.2.1, (hagree c).2.2.2.2.2]
    exact (Cert.Gcn.kernelNet_eq_referenceNet _ _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
